-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2048 : Shape := ⟨2, ![131072, 2048]⟩
abbrev S_ : Shape := ⟨0, ![]⟩

class Facts : Prop where
  bcast_S_S131072x2048 : S_.BroadcastsInDim S131072x2048 (![] : Fin 0 → Fin S131072x2048.rank)
  reducesTo_S131072x2048_S_d0_1 : S131072x2048.ReducesTo [0, 1] S_
  h_S_ : 0 < S_.numel

variable [Facts]

def fn {F : FTy → Type} [FloatOps F] (main_arg0 : FVec F S131072x2048 .f32) : IVec S_ 1 :=
  let main_v0 : FVec F S131072x2048 .f32 := Host.absf main_arg0
  let main_cst : FVec F S_ .f32 := constant S_ .f32 0x7F800000#32
  let main_v1 : FVec F S131072x2048 .f32 := broadcastInDim S131072x2048 ![] bcast_S_S131072x2048 main_cst
  let main_v2 : IVec S131072x2048 1 := cmpf .olt main_v0 main_v1
  let main_c : IVec S_ 1 := constantI S_ 1 1#1
  let main_v3 : IVec S_ 1 := (fun x v => Host.reduce IntOp.andi x v reducesTo_S131072x2048_S_d0_1 h_S_) main_v2 main_c
  main_v3
-- ==== Kernel.lean ====
abbrev S131072x2048 : Shape := ⟨2, ![131072, 2048]⟩
abbrev S131072x1 : Shape := ⟨2, ![131072, 1]⟩
abbrev S16384x128 : Shape := ⟨2, ![16384, 128]⟩
abbrev S16384x1 : Shape := ⟨2, ![16384, 1]⟩

abbrev nBuf : Space → Nat
  | .hbm => 2
  | .vmem => 4
  | .smem => 0
  | _ => 0

abbrev bufTy : (tb : Table) → Fin (tcTables nBuf tb) → BufTy
  | .hbm, ⟨0, _⟩ => ⟨S131072x2048, .f32⟩
  | .hbm, ⟨1, _⟩ => ⟨S131072x1, .f32⟩
  | .local _ .vmem, ⟨0, _⟩ => ⟨S16384x128, .f32⟩
  | .local _ .vmem, ⟨1, _⟩ => ⟨S16384x128, .f32⟩
  | .local _ .vmem, ⟨2, _⟩ => ⟨S16384x1, .f32⟩
  | .local _ .vmem, ⟨3, _⟩ => ⟨S16384x1, .f32⟩
  | _, _ => ⟨S131072x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16384x128_S16384x1_0_127 : ∀ a, (![0, 127] : Fin 2 → Nat) a + S16384x1.size a ≤ S16384x128.size a
  h_S16384x1 : 0 < S16384x1.numel
  inb_S16384x128_S16384x1_0_126 : ∀ a, (![0, 126] : Fin 2 → Nat) a + S16384x1.size a ≤ S16384x128.size a
  inb_S16384x1_S16384x1_0_0 : ∀ a, (![0, 0] : Fin 2 → Nat) a + S16384x1.size a ≤ S16384x1.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S131072x2048.size a
  hwx0_0 : ∀ i : grid0.Coords, EltTy.bits .f32 = 32 ∨ (Rect.block (s := S131072x2048) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x1.size a ≤ S131072x1.size a
  hwx0_1 : ∀ i : grid0.Coords, EltTy.bits .f32 = 32 ∨ (Rect.block (s := S131072x1) S16384x1.size (cc0_transform_1 i) (hinb0_1 i)).WholeWords (EltTy.packing .f32)

variable [Facts₀]

abbrev win0_0 : Pipeline.Window sig grid0 :=
  Pipeline.Window.ofSpec (Memref.whole main_arg0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S131072x2048 : Shape := ⟨2, ![131072, 2048]⟩
abbrev S131072x1 : Shape := ⟨2, ![131072, 1]⟩
abbrev S131072 : Shape := ⟨1, ![131072]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S131072x2048, .f32⟩
  | .hbm, ⟨1, _⟩ => ⟨S131072x1, .f32⟩
  | .hbm, ⟨2, _⟩ => ⟨S131072, .f32⟩
  | .hbm, ⟨3, _⟩ => ⟨S131072x1, .f32⟩
  | .hbm, ⟨4, _⟩ => ⟨S131072, .f32⟩
  | .hbm, ⟨5, _⟩ => ⟨S_, .f32⟩
  | .hbm, ⟨6, _⟩ => ⟨S131072, .f32⟩
  | .hbm, ⟨7, _⟩ => ⟨S131072, .f32⟩
  | .hbm, ⟨8, _⟩ => ⟨S131072, .f32⟩
  | .hbm, ⟨9, _⟩ => ⟨S131072x1, .f32⟩
  | _, _ => ⟨S131072x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  slices_S131072x2048_S131072x1_0_2047 : S131072x2048.Slices ![0, 2047] S131072x1
  shapeCasts_S131072x1_S131072 : S131072x1.ShapeCasts S131072
  slices_S131072x2048_S131072x1_0_2046 : S131072x2048.Slices ![0, 2046] S131072x1
  bcast_S_S131072 : S_.BroadcastsInDim S131072 (![] : Fin 0 → Fin S131072.rank)
  bcast_S131072_S131072x1_0 : S131072.BroadcastsInDim S131072x1 (![0] : Fin 1 → Fin S131072x1.rank)

variable [Facts₀]

class Facts : Prop extends Facts₀ where

variable [Facts]
-- ==== Proof.Extrapolation.lean ====
/-
  Linear extrapolation one step past the last sample, row by row.

  A row of the matrix is 2048 samples of a function at the positions 0, 1, …, 2047. The straight line through the
  last two samples, continued to position 2048, takes there the value
      x[r, 2047] + (x[r, 2047] - x[r, 2046])  =  2 · x[r, 2047] - x[r, 2046].
  The result is the column of these values, one for each of the 131072 rows.

  The value is formed as a product first and a difference second, the factor two on the left of the product. Both
  programs form it in exactly this order from exactly these two entries, so comparing them uses no law of arithmetic
  (neither commutativity nor distributivity, and nothing about infinite entries): the function below is stated for any
  interpretation of the float operations, the extended reals among them.
-/
import Idealize.ShloMosaic.PureOps.Ideal
import Idealize.ShloMosaic.Lib.ValueIdx

noncomputable section

namespace Cert.Extrapolation

open Idealize.ShloMosaic Idealize.ShloMosaic.ValueIdx

variable {F : FTy → Type} [FloatOps F]

/-- The index set of the matrix of samples: 131072 rows, 2048 positions in a row. -/
abbrev Samples : Shape := ⟨2, ![131072, 2048]⟩

/-- The index set of the result: one value for each of the 131072 rows, kept as a column. -/
abbrev Column : Shape := ⟨2, ![131072, 1]⟩

/-- Where row `r`'s last sample sits: position 2047. -/
abbrev lastSample (r : Fin 131072) : Samples.Idx := ix2 r (⟨2047, by omega⟩ : Fin 2048)

/-- Where row `r`'s sample before the last sits: position 2046. -/
abbrev prevSample (r : Fin 131072) : Samples.Idx := ix2 r (⟨2046, by omega⟩ : Fin 2048)

/-- The extrapolated column. Its entry in row `r` is twice the row's last sample minus the sample before it; the word
    `0x40000000` is the float two. Only the row coordinate of the result's index is read: the column has one position. -/
def extrapolate (x : Samples.Idx → Elt F .f32) : Column.Idx → Elt F .f32 := fun i =>
  FloatOps.subf (FloatOps.mulf (FloatOps.ofBits .f32 0x40000000#32) (x (lastSample (i 0)))) (x (prevSample (i 0)))

end Cert.Extrapolation

end
-- ==== Proof.KernelExtrapolates.lean ====
/-
  The kernel computes the extrapolated column, one block of rows at a time.

  The 131072 rows are cut into 8 blocks of 16384. For block `t` the kernel is handed rows 16384·t … 16384·t + 16383
  of the matrix, but of each row only the last group of 128 positions, 1920 … 2047 (group 15 of the 16 groups of 128),
  and it writes the rows of the same numbers of the result. Inside the handed piece a row's last sample is at place 127
  and the one before it at place 126, because 1920 + 127 = 2047 and 1920 + 126 = 2046. The body reads these two places
  of every row of the piece, doubles the first and subtracts the second. So block `t` writes rows 16384·t … of the
  extrapolated column, and since row `r` lies in block `r / 16384` the eight blocks together are the whole column.
-/
import proofs.«175433_j14851996909739_2_alg».proof.Proof.Gen.KernelIdeal.Value
import proofs.«175433_j14851996909739_2_alg».proof.Proof.Extrapolation
import Idealize.ShloMosaic.Lib.Pipeline.Value

noncomputable section

namespace Cert.KernelIdeal.Extrapolates

open Cert.KernelIdeal Cert.KernelIdeal.Gen Cert.Extrapolation
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-! ## The body, at one row of the handed piece -/

/-- The body writes its result from the first place of the output piece on: both offsets are zero. -/
theorem from_origin : (![0, 0] : Fin 2 → Nat) = fun _ => 0 := funext fun a => by fin_cases a <;> rfl

/-- The body's first read, at row `j 0`, is place 127 of that row of the handed piece. -/
theorem read_place_127 (j : S16384x1.Idx) :
    r0_0.emb j = ix2 (⟨(j 0).val, (j 0).isLt⟩ : Fin 16384) (⟨127, by omega⟩ : Fin 128) := by
  funext a
  apply Fin.ext
  match a with
  | ⟨0, _⟩ => show 0 + 1 * (j 0).val = (j 0).val; omega
  | ⟨1, _⟩ => show 127 + 1 * (j 1).val = 127; have h : (j 1).val < 1 := (j 1).isLt; omega

/-- The body's second read, at row `j 0`, is place 126 of that row of the handed piece. -/
theorem read_place_126 (j : S16384x1.Idx) :
    r0_1.emb j = ix2 (⟨(j 0).val, (j 0).isLt⟩ : Fin 16384) (⟨126, by omega⟩ : Fin 128) := by
  funext a
  apply Fin.ext
  match a with
  | ⟨0, _⟩ => show 0 + 1 * (j 0).val = (j 0).val; omega
  | ⟨1, _⟩ => show 126 + 1 * (j 1).val = 126; have h : (j 1).val < 1 := (j 1).isLt; omega

/-- What the body leaves in row `j 0` of the output piece: twice place 127 of that row of the handed piece, minus
    place 126 of it. -/
theorem body_row (x : Vec F S16384x128 .f32) (j : S16384x1.Idx) :
    out0_1 x j = FloatOps.subf (FloatOps.mulf (FloatOps.ofBits .f32 0x40000000#32)
        (x (ix2 (⟨(j 0).val, (j 0).isLt⟩ : Fin 16384) (⟨127, by omega⟩ : Fin 128))))
      (x (ix2 (⟨(j 0).val, (j 0).isLt⟩ : Fin 16384) (⟨126, by omega⟩ : Fin 128))) := by
  unfold out0_1
  rw [View.canon_unit_zero from_origin]
  show FloatOps.subf (FloatOps.mulf (FloatOps.ofBits .f32 0x40000000#32) (x (r0_0.emb j))) (x (r0_1.emb j)) = _
  rw [read_place_127, read_place_126]

/-! ## Where a block's pieces lie in the matrix and in the column -/

/-- Where the pieces lie, checked block by block over the eight blocks: the handed piece and the written piece are the
    same block of rows; the handed piece is group 15 of the sixteen groups of 128 positions; the written piece is the
    column's only position. -/
theorem piece_places : ∀ t : Fin cfg0.N, win0_0.index t (0 : Fin 2) = win0_1.index t (0 : Fin 2)
    ∧ win0_0.index t (1 : Fin 2) = 15 ∧ win0_1.index t (1 : Fin 2) = 0 :=
  (by decide +kernel : ∀ t : Fin grid0.N, _)

/-- Each of the eight blocks of rows is written by some block of the grid. -/
theorem every_block : ∀ q : Fin 8, ∃ t : Fin cfg0.N, win0_1.index t = ![q.val, 0] :=
  (by decide +kernel : ∀ q : Fin 8, ∃ t : Fin grid0.N, win0_1.index t = ![q.val, 0])

/-- What block `t` writes back is rows 16384·t … of the extrapolated column of the matrix: row `p` of the handed piece
    is row 16384·t + p of the matrix, and its places 127 and 126 are the positions 15·128 + 127 = 2047 and
    15·128 + 126 = 2046 of that row. -/
theorem block_written (c : Dev nD) (t : Fin cfg0.N) :
    (dats m 0 c).flushed 1 t = ((cfg0.win 1).blk t).view.read (Elt F) (extrapolate (V m c main_arg0)) := by
  rw [Cert.KernelIdeal.Value.flushed1]
  obtain ⟨e0, e1, e2⟩ := piece_places t
  funext j
  show out0_1 (iblk m c 0 t) j = extrapolate (V m c main_arg0) (((cfg0.win 1).blk t).view.emb j)
  refine (body_row (iblk m c 0 t) j).trans ?_
  have h127 : ((cfg0.win 0).blk t).view.emb (ix2 (⟨(j 0).val, (j 0).isLt⟩ : Fin 16384) (⟨127, by omega⟩ : Fin 128))
      = lastSample ((((cfg0.win 1).blk t).view.emb j) 0) := by
    funext a
    apply Fin.ext
    match a with
    | ⟨0, _⟩ => show win0_0.index t (0 : Fin 2) * 16384 + 1 * (j 0).val = win0_1.index t (0 : Fin 2) * 16384 + 1 * (j 0).val; omega
    | ⟨1, _⟩ => show win0_0.index t (1 : Fin 2) * 128 + 1 * 127 = 2047; omega
  have h126 : ((cfg0.win 0).blk t).view.emb (ix2 (⟨(j 0).val, (j 0).isLt⟩ : Fin 16384) (⟨126, by omega⟩ : Fin 128))
      = prevSample ((((cfg0.win 1).blk t).view.emb j) 0) := by
    funext a
    apply Fin.ext
    match a with
    | ⟨0, _⟩ => show win0_0.index t (0 : Fin 2) * 16384 + 1 * (j 0).val = win0_1.index t (0 : Fin 2) * 16384 + 1 * (j 0).val; omega
    | ⟨1, _⟩ => show win0_0.index t (1 : Fin 2) * 128 + 1 * 126 = 2046; omega
  show FloatOps.subf (FloatOps.mulf (FloatOps.ofBits .f32 0x40000000#32)
        (V m c main_arg0 (((cfg0.win 0).blk t).view.emb (ix2 (⟨(j 0).val, (j 0).isLt⟩ : Fin 16384) (⟨127, by omega⟩ : Fin 128)))))
      (V m c main_arg0 (((cfg0.win 0).blk t).view.emb (ix2 (⟨(j 0).val, (j 0).isLt⟩ : Fin 16384) (⟨126, by omega⟩ : Fin 128))))
    = FloatOps.subf (FloatOps.mulf (FloatOps.ofBits .f32 0x40000000#32)
        (V m c main_arg0 (lastSample ((((cfg0.win 1).blk t).view.emb j) 0))))
      (V m c main_arg0 (prevSample ((((cfg0.win 1).blk t).view.emb j) 0)))
  rw [h127, h126]

/-- An index of the column lies in block `t`'s written piece exactly when each coordinate lies in the piece's range. -/
theorem in_written_piece (t : Fin cfg0.N) (i : S131072x1.Idx) :
    i ∈ ((cfg0.win 1).blk t).view.set ↔ ∀ a : Fin 2, win0_1.index t a * S16384x1.size a ≤ (i a).val
      ∧ (i a).val < win0_1.index t a * S16384x1.size a + S16384x1.size a := by
  show i ∈ ((View.whole main_v0).slice (win0_1.rect t)).set ↔ _
  rw [View.set_slice_whole, Rect.mem_set_unit]
  exact Iff.rfl

/-- Every row of the column is written: row `r` lies in the block of rows number `r / 16384`. -/
theorem every_row_written (i : S131072x1.Idx) :
    ∃ t : Fin cfg0.N, (cfg0.win 1).flush t = true ∧ i ∈ ((cfg0.win 1).blk t).view.set := by
  have hi0 : (i 0).val < 131072 := (i 0).isLt
  have hi1 : (i 1).val < 1 := (i 1).isLt
  obtain ⟨t, ht⟩ := every_block ⟨(i 0).val / 16384, by omega⟩
  have q0 : win0_1.index t (0 : Fin 2) = (i 0).val / 16384 := congrFun ht 0
  have q1 : win0_1.index t (1 : Fin 2) = 0 := congrFun ht 1
  refine ⟨t, flush0_1 t, ?_⟩
  rw [in_written_piece]
  intro a
  match a with
  | ⟨0, _⟩ => show win0_1.index t (0 : Fin 2) * 16384 ≤ (i 0).val ∧ (i 0).val < win0_1.index t (0 : Fin 2) * 16384 + 16384; omega
  | ⟨1, _⟩ => show win0_1.index t (1 : Fin 2) * 1 ≤ (i 1).val ∧ (i 1).val < win0_1.index t (1 : Fin 2) * 1 + 1; omega

/-! ## The whole column, and the run -/

/-- After all eight blocks the result array is the extrapolated column of the matrix as it was at the start. -/
theorem column_written (c : Dev nD) :
    (dats m 0 c).arrAt 1 cfg0.N = extrapolate (F := F) (m ((c : Thread nD τ).loc main_arg0)) :=
  (dats m 0 c).arrAt_eq_of_cover 1 (extrapolate (V m c main_arg0)) (fun t _ => block_written m c t) every_row_written

/-- Every run of the kernel ends with the result array at the extrapolated column of the matrix, and the matrix as it
    was. -/
theorem run : θ_run defs (onTc (τ := τ) (main (F := F))) ⟨m, fun _ => 0, ρ⟩ fun r => ∀ c : Dev nD,
      r.2.mem ((c : Thread nD τ).loc main_v0) = extrapolate (F := F) (m ((c : Thread nD τ).loc main_arg0))
      ∧ r.2.mem ((c : Thread nD τ).loc main_arg0) = m ((c : Thread nD τ).loc main_arg0) :=
  (θ_run defs _ _).mono (fun r h c => ⟨(h c).1.trans (column_written m c), (h c).2⟩)
    (Cert.KernelIdeal.Value.run_blocks m ρ)

end Cert.KernelIdeal.Extrapolates

end
-- ==== Proof.ReferenceExtrapolates.lean ====
/-
  The reference computes the extrapolated column.

  The reference takes the matrix's last position as a one-column slice, flattens it to a vector of 131072 entries, does
  the same for the position before the last, multiplies the first vector by a vector of twos, subtracts the second, and
  lays the difference out again as a column. Each of these steps moves an entry without changing it or acts on entries
  one at a time, so the entry of the result in row `r` is
      2 · x[r, 2047] - x[r, 2046],
  read off by following row `r` back through the steps: the column's row `r` is the vector's entry `r`, which is the
  slice's row `r` (flattening a one-column array divides the flat position by one), which is the matrix at row `r` and
  position 2047 + 0, respectively 2046 + 0.
-/
import proofs.«175433_j14851996909739_2_alg».proof.Proof.Gen.ReferenceIdeal.Read
import proofs.«175433_j14851996909739_2_alg».proof.Proof.Extrapolation

noncomputable section

namespace Cert.ReferenceIdeal.Extrapolates

open Cert.ReferenceIdeal Cert.ReferenceIdeal.Read Cert.Extrapolation
open Idealize.ShloMosaic Idealize.ShloMosaic.ValueIdx

variable {F : FTy → Type} [FloatOps F]

/-- Following row `i 0` of the result back to the slice at position 2047 lands on the row's last sample. -/
theorem back_to_last (i : S131072x1.Idx) : idx_main_v0 (idx_main_v1 (idx_main_v7 i)) = lastSample (i 0) := by
  funext a
  apply Fin.ext
  match a with
  | ⟨0, _⟩ => show (i 0).val / 1 = (i 0).val; exact Nat.div_one _
  | ⟨1, _⟩ => rfl

/-- Following row `i 0` of the result back to the slice at position 2046 lands on the sample before the last. -/
theorem back_to_prev (i : S131072x1.Idx) : idx_main_v2 (idx_main_v3 (idx_main_v7 i)) = prevSample (i 0) := by
  funext a
  apply Fin.ext
  match a with
  | ⟨0, _⟩ => show (i 0).val / 1 = (i 0).val; exact Nat.div_one _
  | ⟨1, _⟩ => rfl

/-- The reference's last stage, as a function of the matrix, is the extrapolated column: entry by entry the stages read
    back to twice the last sample minus the one before it. -/
theorem stages_eq (x : (⟨S131072x2048, .f32⟩ : BufTy).Contents (Elt F)) :
    val_main_v7 (F := F) x = extrapolate (F := F) x := by
  funext i
  rw [val_main_v7_apply, val_main_v6_apply, val_main_v5_apply, val_main_v4_apply, val_main_cst_apply,
    val_main_v1_apply, val_main_v0_apply, val_main_v3_apply, val_main_v2_apply, back_to_last, back_to_prev]
  rfl

end Cert.ReferenceIdeal.Extrapolates

end
-- ==== Proof.lean ====
/-
  Linear extrapolation one step past the last sample of each row: the kernel against its reference.

  For a matrix `x` of 131072 rows and 2048 positions both programs return the column whose entry in row `r` is
      2 · x[r, 2047] - x[r, 2046],
  the value at position 2048 of the straight line through the row's last two samples (Proof/Extrapolation.lean).

  The kernel works on 8 blocks of 16384 rows and is handed only the last 128 positions of each row, in which the two
  samples are places 127 and 126; every block writes its own rows of the result and together the blocks are all rows
  (Proof/KernelExtrapolates.lean). The reference slices the two positions out of the whole matrix, flattens them,
  combines them and lays the result out as a column again (Proof/ReferenceExtrapolates.lean). Both form the product
  with two first, the factor two on the left, and subtract second, so over the extended reals the two results are the
  same expression in the same two entries of the matrix: nothing about the arithmetic of the extended reals is needed,
  and the assumption that the matrix's entries are finite is never opened.

  The kernel read over the extended reals is the kernel's own text, no operation rewritten, so there is nothing to show
  about the passage from one to the other.
-/
import proofs.«175433_j14851996909739_2_alg».proof.Defs
import proofs.«175433_j14851996909739_2_alg».proof.Proof.Gen.Kernel
import proofs.«175433_j14851996909739_2_alg».proof.Proof.Gen.Kernel.Skeleton
import proofs.«175433_j14851996909739_2_alg».proof.Proof.Gen.Kernel.Launch
import proofs.«175433_j14851996909739_2_alg».proof.Proof.Gen.Kernel.Points
import proofs.«175433_j14851996909739_2_alg».proof.Proof.Gen.Kernel.Frame
import proofs.«175433_j14851996909739_2_alg».proof.Proof.Gen.KernelIdeal
import proofs.«175433_j14851996909739_2_alg».proof.Proof.Gen.KernelIdeal.Skeleton
import proofs.«175433_j14851996909739_2_alg».proof.Proof.Gen.KernelIdeal.Launch
import proofs.«175433_j14851996909739_2_alg».proof.Proof.Gen.KernelIdeal.Points
import proofs.«175433_j14851996909739_2_alg».proof.Proof.Gen.KernelIdeal.Frame
import proofs.«175433_j14851996909739_2_alg».proof.Proof.Gen.ReferenceIdeal
import proofs.«175433_j14851996909739_2_alg».proof.Proof.Gen.Pre_finite_inputs
import proofs.«175433_j14851996909739_2_alg».proof.Proof.Gen.KernelIdeal.Value
import proofs.«175433_j14851996909739_2_alg».proof.Proof.Gen.ReferenceIdeal.Run
import proofs.«175433_j14851996909739_2_alg».proof.Proof.Gen.ReferenceIdeal.Read
import proofs.«175433_j14851996909739_2_alg».proof.Proof.Extrapolation
import proofs.«175433_j14851996909739_2_alg».proof.Proof.KernelExtrapolates
import proofs.«175433_j14851996909739_2_alg».proof.Proof.ReferenceExtrapolates
import Idealize.ShloMosaic.Adequacy
import Idealize.ShloMosaic.Init

noncomputable section

namespace Cert.Proof

open Idealize.ShloMosaic Idealize.ShloMosaic.TcCoe Idealize.SL.Sem

/-- The kernel as printed runs to the end without a fault and leaves the matrix as it was. -/
theorem kernel_runs : Cert.frame_Kernel := fun m ρ _ => Cert.Kernel.Gen.frame m ρ

/-- So does the kernel read over the extended reals. -/
theorem ideal_kernel_runs : Cert.frame_KernelIdeal := fun m ρ _ => Cert.KernelIdeal.Gen.frame m ρ

/-- The reference runs to the end without a fault and leaves the matrix as it was: its run, the result forgotten. -/
theorem reference_runs : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals: there is nothing to preserve. -/
theorem nothing_rewritten : Cert.preserves_Kernel_KernelIdeal := trivial

/-- From the same matrix the kernel and the reference both end with the extrapolated column of that matrix: the kernel
    block by block, the reference by reading its steps back at a row; the two are one function of the matrix. -/
theorem same_column : Cert.algebraic_KernelIdeal_ReferenceIdeal := by
  intro m ρ m' ρ' _ hagree
  refine ⟨fun c => Cert.Extrapolation.extrapolate (F := Ideal)
      (m ((c.tc : Thread Cert.KernelIdeal.nD Cert.KernelIdeal.τ).loc Cert.KernelIdeal.main_arg0)),
    Cert.KernelIdeal.Extrapolates.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Extrapolates.stages_eq, hagree c]

theorem claim : Cert.Claim :=
  ⟨Cert.Kernel.Gen.facts, Cert.KernelIdeal.Gen.facts, Cert.ReferenceIdeal.Gen.facts, Cert.Pre_finite_inputs.Gen.facts,
    kernel_runs, ideal_kernel_runs, reference_runs, nothing_rewritten, same_column⟩

end Cert.Proof

end
